-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  main_v3
-- ==== Kernel.lean ====
abbrev S262144x256 : Shape := ⟨2, ![262144, 256]⟩
abbrev S16x256 : Shape := ⟨2, ![16, 256]⟩
abbrev S8192x256 : Shape := ⟨2, ![8192, 256]⟩
abbrev S8x256 : Shape := ⟨2, ![8, 256]⟩
abbrev S1x256 : Shape := ⟨2, ![1, 256]⟩
abbrev S256 : Shape := ⟨1, ![256]⟩
abbrev S_ : Shape := ⟨0, ![]⟩

abbrev nBuf : Space → Nat
  | .hbm => 16
  | .vmem => 5
  | .smem => 0
  | _ => 0

abbrev bufTy : (tb : Table) → Fin (tcTables nBuf tb) → BufTy
  | .hbm, ⟨0, _⟩ => ⟨S262144x256, .f32⟩
  | .hbm, ⟨1, _⟩ => ⟨S16x256, .f32⟩
  | .hbm, ⟨2, _⟩ => ⟨S1x256, .f32⟩
  | .hbm, ⟨3, _⟩ => ⟨S256, .f32⟩
  | .hbm, ⟨4, _⟩ => ⟨S1x256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S8x256, .f32⟩
  | .local _ .vmem, ⟨3, _⟩ => ⟨S8x256, .f32⟩
  | .local _ .vmem, ⟨4, _⟩ => ⟨S1x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8192x256_S8192x256_0_0 : ∀ a, (![0, 0] : Fin 2 → Nat) a + S8192x256.size a ≤ S8192x256.size a
  h_S8192x256 : 0 < S8192x256.numel
  reduces_S8192x256_S256 : S8192x256.Reduces [0] S256
  shapeCasts_S256_S1x256 : S256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  slices_S16x256_S1x256_0_0 : S16x256.Slices ![0, 0] S1x256
  shapeCasts_S1x256_S256 : S1x256.ShapeCasts S256
  slices_S16x256_S1x256_8_0 : S16x256.Slices ![8, 0] S1x256
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S16x256.size a
  hwx0_1 : ∀ i : grid0.Coords, EltTy.bits .f32 = 32 ∨ (Rect.block (s := S16x256) S8x256.size (cc0_transform_1 i) (hinb0_1 i)).WholeWords (EltTy.packing .f32)

variable [Facts₀]

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S262144x256 : Shape := ⟨2, ![262144, 256]⟩
abbrev S_ : Shape := ⟨0, ![]⟩
abbrev S256 : Shape := ⟨1, ![256]⟩

abbrev nBuf : Space → Nat
  | .hbm => 13
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S262144x256_S256_d0 : S262144x256.ReducesTo [0] S256
  h_S_ : 0 < S_.numel
  bcast_S_S256 : S_.BroadcastsInDim S256 (![] : Fin 0 → Fin S256.rank)
  reducesTo_S256_S_d0 : S256.ReducesTo [0] S_

variable [Facts₀]

class Facts : Prop extends Facts₀ where

variable [Facts]
-- ==== Proof.Pieces.lean ====
import proofs.«138044_j17600775979893_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-! What the body leaves behind in each of its three control cases, as values of what it read.
    The body always stores into the running row (its scratch) the old running row plus the tile's column sums of squares;
    at the first point of a half the old running row is the zero row it has just stored, elsewhere it is what the point
    before left. At the last point of a half it also stores, into the output block, the new running row copied into
    every one of the block's eight rows. Each store overwrites its whole buffer, so what a buffer ends holding is the
    last value stored into it. -/

namespace Cert.KernelIdeal.Pieces

open Cert.KernelIdeal Cert.KernelIdeal.Gen Idealize.ShloMosaic.Tactic

variable {F : FTy → Type} [FloatOps F]

/-- The stores and loads all start at the buffers' origin. -/
theorem hz : (![0, 0] : Fin 2 → Nat) = fun _ => 0 := funext fun a => by fin_cases a <;> rfl

/-- A middle point of a half: the running row becomes the old running row `xs` plus the tile `x`'s column sums of squares. -/
theorem scratch_B (c : Dev nD) (i : grid0.Coords) (a2 : Memref sig .tc .vmem S8192x256 .f32) (h2 : a2.IsWhole)
    (a3 : Memref sig .tc .vmem S8x256 .f32) (h3 : a3.IsWhole) (a4 : Memref sig .tc .vmem S1x256 .f32) (h4 : a4.IsWhole)
    (hc0 : ¬cond0_0 i) (hc1 : ¬cond0_1 i) (x : Vec F S8192x256 .f32) (xs : Vec F S1x256 .f32) :
    sout0_B_0 c i a2 h2 a3 h3 a4 h4 hc0 hc1 x xs = k0_pay2 x xs := by
  unfold sout0_B_0
  rw [View.read_writes_eq_canon _ _ _ (scover0_B_0 c i a2 h2 a3 h3 a4 h4 hc0 hc1 x xs)]
  unfold kernelRun0_B
  dsimp only
  rw [View.canon_unit_zero hz]
  simp only [View.readAt_eq_ld, h2.read_unread, h4.read_unread, View.ld_unit_zero (S := S8192x256) hz, View.ld_unit_zero (S := S1x256) hz]

/-- The first point of a half: the running row is reset to zero first, so it becomes zero plus the tile's column sums of squares. -/
theorem scratch_A (c : Dev nD) (i : grid0.Coords) (a2 : Memref sig .tc .vmem S8192x256 .f32) (h2 : a2.IsWhole)
    (a3 : Memref sig .tc .vmem S8x256 .f32) (h3 : a3.IsWhole) (a4 : Memref sig .tc .vmem S1x256 .f32) (h4 : a4.IsWhole)
    (hc0 : cond0_0 i) (hc1 : ¬cond0_1 i) (x : Vec F S8192x256 .f32) :
    sout0_A_0 c i a2 h2 a3 h3 a4 h4 hc0 hc1 x = k0_pay2 x (k0_pay1 (F := F)) := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1x256) hz, View.readCov_unit_zero (S := S1x256) _ hz]
  simp only [View.readAt_eq_ld, h2.read_unread, View.ld_unit_zero (S := S8192x256) hz, View.ld_unit_zero (S := S1x256) hz]

/-- The last point of a half: the running row is updated as at a middle point. -/
theorem scratch_C (c : Dev nD) (i : grid0.Coords) (a2 : Memref sig .tc .vmem S8192x256 .f32) (h2 : a2.IsWhole)
    (a3 : Memref sig .tc .vmem S8x256 .f32) (h3 : a3.IsWhole) (a4 : Memref sig .tc .vmem S1x256 .f32) (h4 : a4.IsWhole)
    (hc0 : ¬cond0_0 i) (hc1 : cond0_1 i) (x : Vec F S8192x256 .f32) (xs : Vec F S1x256 .f32) :
    sout0_C_0 c i a2 h2 a3 h3 a4 h4 hc0 hc1 x xs = k0_pay2 x xs := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz]
  simp only [View.readAt_eq_ld, h2.read_unread, h4.read_unread, View.ld_unit_zero (S := S8192x256) hz, View.ld_unit_zero (S := S1x256) hz]

/-- The last point of a half: the output block is the updated running row copied into each of its rows. -/
theorem out_C (c : Dev nD) (i : grid0.Coords) (a2 : Memref sig .tc .vmem S8192x256 .f32) (h2 : a2.IsWhole)
    (a3 : Memref sig .tc .vmem S8x256 .f32) (h3 : a3.IsWhole) (a4 : Memref sig .tc .vmem S1x256 .f32) (h4 : a4.IsWhole)
    (hc0 : ¬cond0_0 i) (hc1 : cond0_1 i) (x : Vec F S8192x256 .f32) (xs : Vec F S1x256 .f32) :
    out0_C_1 c i a2 h2 a3 h3 a4 h4 hc0 hc1 x xs = k0_pay3 (k0_pay2 x xs) := by
  unfold out0_C_1
  rw [View.read_writes_eq_canon _ _ _ (cover0_C_1 c i a2 h2 a3 h3 a4 h4 hc0 hc1 x xs)]
  unfold kernelRun0_C
  dsimp only
  sl_unfold_words
  rw [View.canon_unit_zero hz, View.readCov_unit_zero (S := S1x256) _ hz]
  simp only [View.readAt_eq_ld, h2.read_unread, h4.read_unread, View.ld_unit_zero (S := S8192x256) hz, View.ld_unit_zero (S := S1x256) hz]

end Cert.KernelIdeal.Pieces

end
-- ==== Proof.Payload.lean ====
import proofs.«138044_j17600775979893_2_alg».proof.Proof.Gen.KernelIdeal.Skeleton
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

/-! The three values the kernel body stores, each read at one column, over the extended reals:
    the reset stores zero; the accumulation stores the old running value plus the tile's column sum of squares;
    the final broadcast copies the running row into each of the eight output rows. -/

namespace Cert.KernelIdeal.Payload

open Cert.KernelIdeal Cert.KernelIdeal.Gen Idealize.ShloMosaic.ValueIdx

/-- Putting row `k` back into the column index `col` gives the tile entry `(k, col)`. -/
theorem lift_col (h : S8192x256.Reduces [0] S256) (col : Fin 256) (k : Fin (S8192x256.size 0)) :
    h.lift (ix1 col) k = ix2 (⟨k.val, k.isLt⟩ : Fin 8192) col := by
  funext a; apply Fin.ext
  match a with
  | ⟨0, _⟩ => rfl
  | ⟨1, _⟩ => rfl

/-- The tile's reduction over its rows, at column `col`: the sum of the squares of that column's 8192 entries. -/
theorem tileSum_apply (x : FVec Ideal S8192x256 .f32) (h : S8192x256.Reduces [0] S256) (hφ : FKind.Formats .f32)
    (hacc : (0x00000000#32 : BitVec FTy.f32.bits) = FKind.add.neutral .f32 hφ) (col : Fin 256) :
    multiReduction (F := Ideal) .add [0] S256 (mulf x x) 0x00000000#32 h hφ hacc (ix1 col)
      = ∑ r : Fin 8192, x (ix2 r col) * x (ix2 r col) := by
  refine (Ideal.multiReduction_add_single (mulf x x) 0x00000000#32 h hφ hacc (ix1 col)).trans ?_
  exact Finset.sum_congr rfl fun k _ => by rw [lift_col h col k]; rfl

/-- The reset value is zero everywhere. -/
theorem reset_apply (j : S1x256.Idx) : k0_pay1 (F := Ideal) j = 0 := by
  unfold k0_pay1
  simp only [shapeCast_self]
  exact Ideal.ofBits_zero_f32

/-- The accumulation step at column `col`: the running value there plus the tile's column sum of squares. -/
theorem step_apply (x : FVec Ideal S8192x256 .f32) (acc : FVec Ideal S1x256 .f32) (col : Fin 256) :
    k0_pay2 (F := Ideal) x acc (ix2 (0 : Fin 1) col)
      = acc (ix2 (0 : Fin 1) col) + ∑ r : Fin 8192, x (ix2 r col) * x (ix2 r col) := by
  unfold k0_pay2
  simp only [shapeCast_self]
  rw [addf_apply]
  refine congrArg (acc (ix2 (0 : Fin 1) col) + ·) ?_
  refine (shapeCast_a_1a_apply _ shapeCasts_S256_S1x256 (0 : Fin 1) col).trans ?_
  exact tileSum_apply x _ _ _ col

/-- The output block's entry `(p, col)` is the running row's entry at `col`, whatever the row `p`. -/
theorem spread_apply (v : FVec Ideal S1x256 .f32) (p : Fin 8) (col : Fin 256) :
    k0_pay3 (F := Ideal) v (ix2 p col) = v (ix2 (0 : Fin 1) col) := by
  unfold k0_pay3
  simp only [shapeCast_self]
  exact broadcastTo_1b_ab_apply v broadcasts_S1x256_S8x256 p col

end Cert.KernelIdeal.Payload

end
-- ==== Proof.Sums.lean ====
import Idealize.ShloMosaic.Lib.ValueIdx

noncomputable section

open Idealize.ShloMosaic Idealize.ShloMosaic.TcCoe Idealize.SL.Sem

/-! Column sums of squares over the extended reals, indexed by the row NUMBER.
    Addition of extended reals is commutative and associative, so a sum over the 262144 rows may be cut into
    consecutive runs of 8192 rows and regrouped freely; no finiteness of the entries is used. -/

namespace Cert.ColSums

open Finset Idealize.ShloMosaic.ValueIdx

/-- The square of the entry in row `k` of column `col`; zero past the last row (never summed there). -/
def colSq (d : (⟨2, ![262144, 256]⟩ : Shape).Idx → EReal) (col : Fin 256) (k : ℕ) : EReal :=
  if h : k < 262144 then d (ix2 ⟨k, h⟩ col) * d (ix2 ⟨k, h⟩ col) else 0

theorem colSq_of_lt (d : (⟨2, ![262144, 256]⟩ : Shape).Idx → EReal) (col : Fin 256) (k : ℕ) (h : k < 262144) :
    colSq d col k = d (ix2 ⟨k, h⟩ col) * d (ix2 ⟨k, h⟩ col) := dif_pos h

/-- The sum over all rows, as a sum over the row numbers below 262144. -/
theorem all_rows (d : (⟨2, ![262144, 256]⟩ : Shape).Idx → EReal) (col : Fin 256) :
    ∑ k : Fin 262144, d (ix2 k col) * d (ix2 k col) = ∑ k ∈ range 262144, colSq d col k :=
  (Finset.sum_congr rfl fun k _ => (colSq_of_lt d col k.val k.isLt).symm).trans
    (Fin.sum_univ_eq_sum_range (colSq d col) 262144)

/-- One tile of 8192 consecutive rows starting at row `b`. -/
theorem tile_range (g : ℕ → EReal) (b : ℕ) : ∑ r : Fin 8192, g (b + r.val) = ∑ r ∈ range 8192, g (b + r) :=
  Fin.sum_univ_eq_sum_range (fun r => g (b + r)) 8192

/-- A prefix of `j` tiles followed by the next tile is the prefix of `j + 1` tiles. -/
theorem prefix_step (g : ℕ → EReal) (q j : ℕ) :
    ∑ k ∈ range (j * 8192), g (q + k) + ∑ r ∈ range 8192, g (q + j * 8192 + r)
      = ∑ k ∈ range ((j + 1) * 8192), g (q + k) := by
  rw [Nat.add_mul, Nat.one_mul, Finset.sum_range_add]
  simp only [Nat.add_assoc]

/-- The first 131072 rows and the last 131072 rows together are all the rows. -/
theorem halves (g : ℕ → EReal) :
    ∑ k ∈ range 131072, g (0 * 131072 + k) + ∑ k ∈ range 131072, g (1 * 131072 + k) = ∑ k ∈ range 262144, g k := by
  rw [show (262144 : ℕ) = 131072 + 131072 from rfl, Finset.sum_range_add]
  simp only [Nat.zero_mul, Nat.zero_add, Nat.one_mul]

end Cert.ColSums

end
-- ==== Proof.Accum.lean ====
import proofs.«138044_j17600775979893_2_alg».proof.Proof.Pieces
import proofs.«138044_j17600775979893_2_alg».proof.Proof.Payload
import proofs.«138044_j17600775979893_2_alg».proof.Proof.Sums

noncomputable section

open Idealize.ShloMosaic Idealize.ShloMosaic.TcCoe Idealize.SL.Sem

/-! The running row the kernel keeps in its scratch, grid point by grid point.
    Point `n` of the 2 × 16 grid reads tile `n` of the argument (rows `8192 n` to `8192 n + 8191`); the 16 points
    `16 q, …, 16 q + 15` together read half `q` (rows `131072 q` onward). After point `n` the scratch holds, at every column, the sum of the
    squares of that column over the first `n mod 16 + 1` tiles of half `n / 16`. -/

namespace Cert.KernelIdeal.Accum

open Cert.KernelIdeal Cert.KernelIdeal.Gen Idealize.ShloMosaic.ValueIdx Cert.ColSums Finset

variable (m : (ℓ : Loc nD τ sig) → Buf (Elt Ideal) ℓ)

/-- The input window's block index at point `t` is `(t, 0)`: decided over the 32 points. -/
theorem idx_in : ∀ t : Fin cfg0.N, win0_0.index t 0 = t.val ∧ win0_0.index t 1 = 0 :=
  (by decide +kernel : ∀ t : Fin grid0.N, win0_0.index t 0 = t.val ∧ win0_0.index t 1 = 0)

/-- The tile the input window holds at point `t`, as a vector of the tile's literal shape. -/
abbrev tile (c : Dev nD) (t : Fin cfg0.N) : FVec Ideal S8192x256 .f32 := iblk m c 0 t

/-- Entry `(r, col)` of the tile at point `t` is entry `(8192 t + r, col)` of the argument. -/
theorem block_apply (c : Dev nD) (t : Fin cfg0.N) (r : Fin 8192) (col : Fin 256) (hk : t.val * 8192 + r.val < 262144) :
    tile m c t (ix2 r col)
      = m ((c : Thread nD τ).loc main_arg0) (ix2 ⟨t.val * 8192 + r.val, hk⟩ col) := by
  have hi := idx_in t
  unfold tile iblk
  rw [View.read_apply]
  show V m c main_arg0 _ = m (c.tc.loc main_arg0) _
  rw [V_main_arg0]
  congr 1
  funext a
  apply Fin.ext
  match a with
  | ⟨0, _⟩ => show win0_0.index t 0 * 8192 + 1 * r.val = t.val * 8192 + r.val; rw [hi.1]; omega
  | ⟨1, _⟩ => show win0_0.index t 1 * 256 + 1 * col.val = col.val; rw [hi.2]; omega

/-- So the squares of the tile's column are the column squares of rows `8192 t + r`. -/
theorem block_sq (c : Dev nD) (t : Fin cfg0.N) (col : Fin 256) (r : Fin 8192) :
    tile m c t (ix2 r col) * tile m c t (ix2 r col)
      = colSq (m ((c : Thread nD τ).loc main_arg0)) col (t.val * 8192 + r.val) := by
  have hN : t.val < 32 := lt_of_lt_of_eq t.isLt (show cfg0.N = 32 from N_0)
  have hk : t.val * 8192 + r.val < 262144 := by have := r.isLt; omega
  rw [colSq_of_lt _ col _ hk, block_apply m c t r col hk]

/-- One accumulation step, as sums: a running value that is the sum over the first `n mod 16` tiles of half `n / 16`,
    plus tile `n`, is the sum over the first `n mod 16 + 1` tiles of that half. -/
theorem step_sum (d : (⟨2, ![262144, 256]⟩ : Shape).Idx → EReal) (col : Fin 256) (x : FVec Ideal S8192x256 .f32)
    (acc : FVec Ideal S1x256 .f32) (n : ℕ)
    (hx : ∀ r : Fin 8192, x (ix2 r col) * x (ix2 r col) = colSq d col (n * 8192 + r.val))
    (hacc : acc (ix2 (0 : Fin 1) col) = ∑ k ∈ range (n % 16 * 8192), colSq d col (n / 16 * 131072 + k)) :
    k0_pay2 (F := Ideal) x acc (ix2 (0 : Fin 1) col)
      = ∑ k ∈ range ((n % 16 + 1) * 8192), colSq d col (n / 16 * 131072 + k) := by
  rw [Payload.step_apply, hacc, Finset.sum_congr rfl (fun r _ => hx r), tile_range, ← prefix_step]
  rw [show n * 8192 = n / 16 * 131072 + n % 16 * 8192 from by omega]

/-- THE INVARIANT, by induction on the point. -/
theorem scratch_after (c : Dev nD) : ∀ (n : ℕ) (h : n < cfg0.N) (col : Fin 256),
    (outsAt0 m c n h).2 (ix2 (0 : Fin 1) col)
      = ∑ k ∈ range ((n % 16 + 1) * 8192), colSq (m ((c : Thread nD τ).loc main_arg0)) col (n / 16 * 131072 + k)
  | n, h, col => by
    have hN : n < 32 := lt_of_lt_of_eq h (show cfg0.N = 32 from N_0)
    by_cases h0 : n % 16 = 0
    · have h1 : ¬n % 16 = 15 := by omega
      rw [outsAt0_A m c ⟨n, h⟩ h0 h1]
      dsimp only
      rw [Pieces.scratch_A]
      refine step_sum _ col _ _ n (block_sq m c ⟨n, h⟩ col) ?_
      rw [h0, Nat.zero_mul, Finset.range_zero, Finset.sum_empty]
      exact Payload.reset_apply _
    · have hpos : 0 < n := by omega
      have IH := scratch_after c (n - 1) (by omega) col
      have e1 : (n - 1) % 16 + 1 = n % 16 := by omega
      have e2 : (n - 1) / 16 = n / 16 := by omega
      rw [e1, e2] at IH
      by_cases h1 : n % 16 = 15
      · rw [outsAt0_C m c ⟨n, h⟩ h0 h1]
        dsimp only
        rw [Pieces.scratch_C]
        exact step_sum _ col _ _ n (block_sq m c ⟨n, h⟩ col) IH
      · rw [outsAt0_B m c ⟨n, h⟩ h0 h1]
        dsimp only
        rw [Pieces.scratch_B]
        exact step_sum _ col _ _ n (block_sq m c ⟨n, h⟩ col) IH
  termination_by n => n
  decreasing_by omega

end Cert.KernelIdeal.Accum

end
-- ==== Proof.Partials.lean ====
import proofs.«138044_j17600775979893_2_alg».proof.Proof.Accum
import Idealize.ShloMosaic.Lib.Pipeline.Value

noncomputable section

open Idealize.ShloMosaic Idealize.ShloMosaic.TcCoe Idealize.SL.Sem

/-! The array the region leaves: 16 rows by 256 columns, rows `8 q, …, 8 q + 7` all equal to the column sums of squares
    over half `q` of the argument's rows (`q = 0, 1`). The output window is written back only after the last point of
    each half (points 15 and 31), and those two blocks of eight rows tile the array. -/

namespace Cert.KernelIdeal.Partials

open Cert.KernelIdeal Cert.KernelIdeal.Gen Idealize.ShloMosaic.ValueIdx Cert.ColSums Finset
open Idealize.ShloMosaic.Pipeline (Dat)

variable (m : (ℓ : Loc nD τ sig) → Buf (Elt Ideal) ℓ)

/-- Column `col`'s sum of squares over half `q`: rows `131072 q` to `131072 q + 131071`. -/
def halfSum (d : (⟨2, ![262144, 256]⟩ : Shape).Idx → EReal) (q : ℕ) (col : Fin 256) : EReal :=
  ∑ k ∈ range 131072, colSq d col (q * 131072 + k)

theorem halfSum_congr (d : (⟨2, ![262144, 256]⟩ : Shape).Idx → EReal) {q q' : ℕ} {col col' : Fin 256}
    (hq : q = q') (hc : col.val = col'.val) : halfSum d q col = halfSum d q' col' := by
  subst hq; obtain rfl : col = col' := Fin.ext hc; rfl

/-- The region's output array as a function of the argument: entry `(i₀, i₁)` is half `i₀ / 8`'s sum at column `i₁`. -/
def partials (d : (⟨2, ![262144, 256]⟩ : Shape).Idx → EReal) : (⟨2, ![16, 256]⟩ : Shape).Idx → EReal :=
  fun i => halfSum d ((i 0).val / 8) ⟨(i 1).val, idx2_lt1 i⟩

/-- After the last point of a half the scratch row holds that half's column sums. -/
theorem scratch_half (c : Dev nD) (t : Fin cfg0.N) (h15 : t.val % 16 = 15) (col : Fin 256) :
    (outsAt0 m c t.val t.isLt).2 (ix2 (0 : Fin 1) col)
      = halfSum (m ((c : Thread nD τ).loc main_arg0)) (t.val / 16) col := by
  rw [Accum.scratch_after m c t.val t.isLt col, h15]
  rfl

/-- At such a point the output block is the scratch row copied into each of its eight rows. -/
theorem out_eq_spread (c : Dev nD) (t : Fin cfg0.N) (h15 : t.val % 16 = 15) :
    (outsAt0 m c t.val t.isLt).1 = k0_pay3 (F := Ideal) (outsAt0 m c t.val t.isLt).2 := by
  have h0 : ¬t.val % 16 = 0 := by omega
  rw [outsAt0_C m c t h0 h15]
  dsimp only
  rw [Pieces.out_C, Pieces.scratch_C]

/-- A row of column values copied into eight rows, as a function on the block. -/
theorem slab_eq (d : (⟨2, ![262144, 256]⟩ : Shape).Idx → EReal) (v : FVec Ideal S1x256 .f32) (q : ℕ)
    (hv : ∀ col : Fin 256, v (ix2 (0 : Fin 1) col) = halfSum d q col) :
    k0_pay3 (F := Ideal) v = fun j : S8x256.Idx => halfSum d q ⟨(j 1).val, idx2_lt1 j⟩ := by
  funext j
  obtain ⟨p, col, rfl⟩ : ∃ (p : Fin 8) (col : Fin 256), j = ix2 p col := ⟨j 0, j 1, eq_ix2 j⟩
  rw [Payload.spread_apply, hv]

/-- The output window's block index at point `t` is `(t / 16, 0)`: decided over the 32 points. -/
theorem idx_out : ∀ t : Fin cfg0.N, win0_1.index t 0 = t.val / 16 ∧ win0_1.index t 1 = 0 :=
  (by decide +kernel : ∀ t : Fin grid0.N, win0_1.index t 0 = t.val / 16 ∧ win0_1.index t 1 = 0)

/-- Entry `j` of the block of eight rows that belongs to half `q`, as an index of the array: row `8 q + j₀`, column `j₁`. -/
def rowOf (q : ℕ) (hq : q < 2) (j : S8x256.Idx) : (⟨2, ![16, 256]⟩ : Shape).Idx :=
  ix2 ⟨q * 8 + (j 0).val, by have := idx2_lt0 j; omega⟩ ⟨(j 1).val, idx2_lt1 j⟩

/-- Every row of half `q`'s block of `partials` is that half's column sums. -/
theorem slab_partials (d : (⟨2, ![262144, 256]⟩ : Shape).Idx → EReal) (q : ℕ) (hq : q < 2) (j : S8x256.Idx) :
    halfSum d q ⟨(j 1).val, idx2_lt1 j⟩ = partials d (rowOf q hq j) := by
  unfold partials rowOf
  refine halfSum_congr d ?_ rfl
  show q = (q * 8 + (j 0).val) / 8
  have := idx2_lt0 j
  omega

/-- Block contents `X` that agree with an array function `G` on the rows of half `t / 16` are, written back at
    point `t`, that block of `G`: the block's row `j₀` is the array's row `8 (t / 16) + j₀`. -/
theorem flushed_of_rows (c : Dev nD) (t : Fin cfg0.N) (X : FVec Ideal S8x256 .f32)
    (G : (⟨2, ![16, 256]⟩ : Shape).Idx → EReal) (hq : t.val / 16 < 2)
    (hXG : ∀ j : S8x256.Idx, X j = G (rowOf (t.val / 16) hq j)) :
    (cfg0.win 1).cut (grid0.coords t) X = ((cfg0.win 1).blk t).view.read (Elt Ideal) G := by
  have hi := idx_out t
  funext j
  rw [View.read_apply]
  show X j = G (((cfg0.win 1).blk t).view.emb j)
  refine (hXG j).trans (congrArg G ?_)
  funext a; apply Fin.ext
  match a with
  | ⟨0, _⟩ =>
    show t.val / 16 * 8 + (j 0).val = win0_1.index t 0 * 8 + 1 * (j 0).val
    rw [hi.1]; omega
  | ⟨1, _⟩ =>
    show (j 1).val = win0_1.index t 1 * 256 + 1 * (j 1).val
    rw [hi.2]; omega

/-- What a flushing point writes back is its block of `partials`. -/
theorem flushed_eq (c : Dev nD) (t : Fin cfg0.N) (hf : (cfg0.win 1).flush t = true) :
    (dats m 0 c).flushed 1 t
      = ((cfg0.win 1).blk t).view.read (Elt Ideal) (partials (m ((c : Thread nD τ).loc main_arg0))) := by
  have h15 : t.val % 16 = 15 := (flush0_1 t).mp hf
  have hN : t.val < 32 := lt_of_lt_of_eq t.isLt (show cfg0.N = 32 from N_0)
  have hq : t.val / 16 < 2 := by omega
  show (cfg0.win 1).cut (grid0.coords t) ((dats m 0 c).after 1 t) = _
  rw [after0_1, out_eq_spread m c t h15,
    slab_eq (m ((c : Thread nD τ).loc main_arg0)) _ (t.val / 16) (scratch_half m c t h15)]
  refine flushed_of_rows c t _ _ hq ?_
  intro j
  exact slab_partials (m ((c : Thread nD τ).loc main_arg0)) (t.val / 16) hq j

/-- An index of the array is in point `t`'s block iff each coordinate is in the block's range on its axis. -/
theorem mem_blk (t : Fin cfg0.N) (i : S16x256.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v0).slice (win0_1.rect t)).set ↔ _
  rw [View.set_slice_whole, Rect.mem_set_unit]
  exact Iff.rfl

/-- Row `i₀` lies in the block written back after the last point of half `i₀ / 8`. -/
theorem cover (i : S16x256.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hN : cfg0.N = 32 := N_0
  refine ⟨⟨(i 0).val / 8 * 16 + 15, by rw [hN]; omega⟩, (flush0_1 _).mpr (by dsimp only; omega), ?_⟩
  rw [mem_blk]
  obtain ⟨e0, e1⟩ := idx_out ⟨(i 0).val / 8 * 16 + 15, by rw [hN]; omega⟩
  intro a
  match a with
  | ⟨0, _⟩ =>
    show win0_1.index _ 0 * 8 ≤ (i 0).val ∧ (i 0).val < win0_1.index _ 0 * 8 + 8
    rw [e0]; dsimp only; omega
  | ⟨1, _⟩ =>
    show win0_1.index _ 1 * 256 ≤ (i 1).val ∧ (i 1).val < win0_1.index _ 1 * 256 + 256
    rw [e1]; omega

/-- THE REGION'S OUTPUT ARRAY after the run. -/
theorem final_out (c : Dev nD) :
    (dats m 0 c).arrAt 1 cfg0.N = partials (m ((c : Thread nD τ).loc main_arg0)) :=
  (dats m 0 c).arrAt_eq_of_cover 1 (partials (m ((c : Thread nD τ).loc main_arg0))) (flushed_eq m c) cover

end Cert.KernelIdeal.Partials

end
-- ==== Proof.Tail.lean ====
import proofs.«138044_j17600775979893_2_alg».proof.Proof.Sums

noncomputable section

open Idealize.ShloMosaic Idealize.ShloMosaic.TcCoe Idealize.SL.Sem

/-! What both programs do once they have the 256 column sums of squares `s`: subtract one from each, square,
    add the 256 squares up from zero, take the square root, and scale by the single-precision constant nearest 0.001.
    Both programs print these five operations with the same three literal words, so the loss is ONE function of `s`. -/

namespace Cert.LossTail

open Idealize.ShloMosaic Finset

/-- The 256 column sums of squares of the argument, each over all 262144 rows. -/
def colSums (d : (⟨2, ![262144, 256]⟩ : Shape).Idx → EReal) : (⟨1, ![256]⟩ : Shape).Idx → EReal :=
  fun j => ∑ k ∈ range 262144, Cert.ColSums.colSq d ⟨(j 0).val, (j 0).isLt⟩ k

/-- The loss as a function of the column sums. -/
def tail (hb : (⟨0, ![]⟩ : Shape).BroadcastsInDim (⟨1, ![256]⟩ : Shape) (![] : Fin 0 → Fin (⟨1, ![256]⟩ : Shape).rank))
    (hr : (⟨1, ![256]⟩ : Shape).ReducesTo [0] (⟨0, ![]⟩ : Shape)) (h0 : 0 < (⟨0, ![]⟩ : Shape).numel)
    (s : FVec Ideal (⟨1, ![256]⟩ : Shape) .f32) : FVec Ideal (⟨0, ![]⟩ : Shape) .f32 :=
  mulf (constant (F := Ideal) ⟨0, ![]⟩ .f32 0x3A83126F#32)
    (Host.sqrt (F := Ideal) (Host.reduceAdd (F := Ideal)
      (mulf (subf s (broadcastInDim ⟨1, ![256]⟩ ![] hb (constant (F := Ideal) ⟨0, ![]⟩ .f32 0x3F800000#32)))
        (subf s (broadcastInDim ⟨1, ![256]⟩ ![] hb (constant (F := Ideal) ⟨0, ![]⟩ .f32 0x3F800000#32))))
      (constant (F := Ideal) ⟨0, ![]⟩ .f32 0x00000000#32) hr h0))

end Cert.LossTail

end
-- ==== Proof.KRun.lean ====
import proofs.«138044_j17600775979893_2_alg».proof.Proof.Partials
import proofs.«138044_j17600775979893_2_alg».proof.Proof.Tail
import Idealize.ShloMosaic.Lib.StableHlo.Run
import Idealize.ShloMosaic.Lib.ValueLayout

noncomputable section

open Idealize.ShloMosaic Idealize.ShloMosaic.TcCoe Idealize.SL.Sem

/-! The kernel's whole run. After the region the host takes row 0 and row 8 of the 16-row array of partial sums — one
    row from each half's block — and adds them: at every column that is the first half's sum plus the second half's,
    which is the sum over all 262144 rows. The shared tail follows. -/

namespace Cert.KernelIdeal.KRun

open Cert.KernelIdeal Cert.KernelIdeal.Gen Idealize.ShloMosaic.ValueIdx Cert.ColSums Cert.LossTail Finset
open Cert.KernelIdeal.Partials
open Idealize.ShloMosaic.Pipeline (Dat)
open Idealize.ShloMosaic.StableHlo

variable (m : (ℓ : Loc nD τ sig) → Buf (Elt Ideal) ℓ) (ρ : Dev nD → PrngReg)

/-- The host's two row slices of a 16-row array, flattened and added. -/
def combine (G : FVec Ideal S16x256 .f32) : FVec Ideal S256 .f32 :=
  addf (shapeCast S256 (extractStridedSlice S1x256 ![0, 0] G slices_S16x256_S1x256_0_0) shapeCasts_S1x256_S256)
    (shapeCast S256 (extractStridedSlice S1x256 ![8, 0] G slices_S16x256_S1x256_8_0) shapeCasts_S1x256_S256)

/-- At column `col` it is row 0's entry plus row 8's. -/
theorem combine_apply (G : FVec Ideal S16x256 .f32) (col : Fin 256) :
    combine G (ix1 col) = G (ix2 (0 : Fin 16) col) + G (ix2 (8 : Fin 16) col) := by
  unfold combine
  rw [addf_apply, shapeCast_1a_a_apply, shapeCast_1a_a_apply,
    slice2_axis0_apply 0 G slices_S16x256_S1x256_0_0 (0 : Fin 1) col (0 : Fin 16) rfl,
    slice2_axis0_apply 8 G slices_S16x256_S1x256_8_0 (0 : Fin 1) col (8 : Fin 16) rfl]

/-- Row 0 of the partial sums is the first half's column sums, row 8 the second half's. -/
theorem partials_row0 (d : (⟨2, ![262144, 256]⟩ : Shape).Idx → EReal) (col : Fin 256) :
    partials d (ix2 (0 : Fin 16) col) = halfSum d 0 col :=
  halfSum_congr d (show ((0 : Fin 16).val / 8 = 0) from by decide) rfl
theorem partials_row8 (d : (⟨2, ![262144, 256]⟩ : Shape).Idx → EReal) (col : Fin 256) :
    partials d (ix2 (8 : Fin 16) col) = halfSum d 1 col :=
  halfSum_congr d (show ((8 : Fin 16).val / 8 = 1) from by decide) rfl

/-- The two halves' sums add up to the sum over all rows. -/
theorem halves_sum (d : (⟨2, ![262144, 256]⟩ : Shape).Idx → EReal) (col : Fin 256) :
    halfSum d 0 col + halfSum d 1 col = colSums d (ix1 col) := by
  unfold halfSum
  exact halves (colSq d col)

/-- So the combined rows of the partial sums are the column sums. -/
theorem combine_partials (d : (⟨2, ![262144, 256]⟩ : Shape).Idx → EReal) : combine (partials d) = colSums d := by
  funext j
  obtain ⟨col, rfl⟩ : ∃ col : Fin 256, j = ix1 col := ⟨j 0, eq_ix1 j⟩
  rw [combine_apply, partials_row0, partials_row8, halves_sum]

/-- The array the host tail reads is the region's output array. -/
theorem tail_reads (c : Dev nD) :
    Pipeline.withArrays (cfgs 0).spec c (V0 m c) (fun w => (dats m 0 c).arrAt w (cfgs 0).N) (Proc.devRef .tc main_v0)
      = partials (m ((c : Thread nD τ).loc main_arg0)) :=
  (Pipeline.withArrays_arr spec0 launch0.win.arr_inj c _ _ 1).trans (final_out m c)

/-- The program's result after the host tail. -/
theorem result_eq (c : Dev nD) :
    Pipeline.afterTail₀ cfgs (dats m) 0 (V0 m) [hostOps1] c main_v11
      = tail bcast_S_S256 reducesTo_S256_S_d0 h_S_ (colSums (m ((c : Thread nD τ).loc main_arg0))) := by
  unfold Pipeline.afterTail₀
  show StableHlo.after hostOps1 _ (Proc.devRef .tc main_v11) = _
  after_results
  show tail bcast_S_S256 reducesTo_S256_S_d0 h_S_ (combine (Pipeline.withArrays (cfgs 0).spec c (V0 m c)
    (fun w => (dats m 0 c).arrAt w (cfgs 0).N) (Proc.devRef .tc main_v0))) = _
  rw [tail_reads, combine_partials]

/-- THE RUN: the result at the tail of the column sums, the argument unchanged. -/
theorem run : θ_run defs (onTc (τ := τ) (main (F := Ideal))) ⟨m, fun _ => 0, ρ⟩ fun r => ∀ c : Dev nD,
      r.2.mem ((c : Thread nD τ).loc main_v11)
        = tail bcast_S_S256 reducesTo_S256_S_d0 h_S_ (colSums (m ((c : Thread nD τ).loc main_arg0)))
      ∧ r.2.mem ((c : Thread nD τ).loc main_arg0) = m ((c : Thread nD τ).loc main_arg0) :=
  (θ_run defs _ _).mono (fun r h c =>
      ⟨((h c).2 main_v11 (Pipeline.mem_restRefs_of main_v11 (by decide) (by decide))).trans (result_eq m c),
        ((h c).1 0).trans (((dats m 0 c).arrAt_in 0 rfl _).trans ((A_eq m c 0).trans (V_main_arg0 m c)))⟩)
    (run_main m ρ)

end Cert.KernelIdeal.KRun

end
-- ==== Proof.RefValue.lean ====
import proofs.«138044_j17600775979893_2_alg».proof.Proof.Gen.ReferenceIdeal.Read
import proofs.«138044_j17600775979893_2_alg».proof.Proof.Tail
import Idealize.ShloMosaic.Lib.ValueIdx

noncomputable section

open Idealize.ShloMosaic Idealize.ShloMosaic.TcCoe Idealize.SL.Sem

/-! The reference: its reduction over the rows is, column by column, zero plus the sum of the squares of all 262144
    entries of the column; what follows is the shared tail. -/

namespace Cert.ReferenceIdeal.RefValue

open Cert.ReferenceIdeal Cert.ReferenceIdeal.Gen Idealize.ShloMosaic.ValueIdx Cert.ColSums Cert.LossTail Finset

/-- Row `k` put back into the column index is entry `(k, col)`. -/
theorem idx_row (col : Fin 256) (k : Fin 262144) : Read.idx_main_v1 (ix1 col) k = ix2 k col := by
  funext a; apply Fin.ext
  match a with
  | ⟨0, _⟩ => rfl
  | ⟨1, _⟩ => rfl

/-- The reference's column sums are `colSums`. -/
theorem ref_colSums (d : S262144x256.Idx → EReal) : Read.val_main_v1 (F := Ideal) d = colSums d := by
  funext j
  obtain ⟨col, rfl⟩ : ∃ col : Fin 256, j = ix1 col := ⟨j 0, eq_ix1 j⟩
  rw [Read.val_main_v1_apply, Read.val_main_cst_apply]
  show Ideal.ofBits .f32 0x00000000#32 + _ = _
  rw [Ideal.ofBits_zero_f32, zero_add]
  refine (Finset.sum_congr rfl fun k _ => ?_).trans (all_rows d col)
  rw [Read.val_main_v0_apply, idx_row]
  rfl

/-- The reference's result is the tail of `colSums`. -/
theorem ref_result (d : S262144x256.Idx → EReal) :
    Read.val_main_v7 (F := Ideal) d = tail bcast_S_S256 reducesTo_S256_S_d0 h_S_ (colSums d) := by
  rw [← ref_colSums]
  rfl

end Cert.ReferenceIdeal.RefValue

end
-- ==== Proof.lean ====
/- The loss  0.001 · sqrt( Σ_j ( Σ_i d[i,j]² − 1 )² )  of a 262144 × 256 matrix `d`, computed two ways.
   The reference squares `d`, sums each column over all 262144 rows, and finishes with five small operations on
   the 256 column sums. The kernel walks a 2 × 16 grid: point `(q, j)` reads the tile of rows `8192 (16 q + j)` to
   `8192 (16 q + j) + 8191`, adds the tile's column sums of squares into a running row that is reset to zero at `j = 0`,
   and at `j = 15` copies the running row into the eight rows `8 q, …, 8 q + 7` of a 16 × 256 array; afterwards row 0
   and row 8 of that array are added and the same five operations follow, with the same three literal constants.
   Over the extended reals addition is commutative and associative, so the column sum over all rows, cut into
   two halves of sixteen tiles of 8192 rows and added up tile by tile from zero, is the same number; no finiteness of
   the entries is needed for that, and the precondition is not opened. The idealizing pass rewrote nothing, so the
   kernel's idealization is its own text read over the extended reals. -/
import proofs.«138044_j17600775979893_2_alg».proof.Defs
import proofs.«138044_j17600775979893_2_alg».proof.Proof.Gen.Kernel
import proofs.«138044_j17600775979893_2_alg».proof.Proof.Gen.Kernel.Skeleton
import proofs.«138044_j17600775979893_2_alg».proof.Proof.Gen.Kernel.Launch
import proofs.«138044_j17600775979893_2_alg».proof.Proof.Gen.Kernel.Points
import proofs.«138044_j17600775979893_2_alg».proof.Proof.Gen.Kernel.Frame
import proofs.«138044_j17600775979893_2_alg».proof.Proof.Gen.KernelIdeal
import proofs.«138044_j17600775979893_2_alg».proof.Proof.Gen.KernelIdeal.Skeleton
import proofs.«138044_j17600775979893_2_alg».proof.Proof.Gen.KernelIdeal.Launch
import proofs.«138044_j17600775979893_2_alg».proof.Proof.Gen.KernelIdeal.Points
import proofs.«138044_j17600775979893_2_alg».proof.Proof.Gen.KernelIdeal.Frame
import proofs.«138044_j17600775979893_2_alg».proof.Proof.Gen.ReferenceIdeal
import proofs.«138044_j17600775979893_2_alg».proof.Proof.Gen.Pre_finite_inputs
import proofs.«138044_j17600775979893_2_alg».proof.Proof.KRun
import proofs.«138044_j17600775979893_2_alg».proof.Proof.RefValue
import Idealize.ShloMosaic.Adequacy
import Idealize.ShloMosaic.Init

noncomputable section

namespace Cert.Proof

open Idealize.ShloMosaic Idealize.SL.Sem Cert.LossTail

/-- The kernel as printed runs and leaves its argument unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is twelve host operations in a row: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the shared tail of the 256 column sums of squares of the argument: the kernel's sums, gathered
    half by half and tile by tile, and the reference's, taken over all rows at once, are the same sums. -/
theorem algebraic : Cert.algebraic_KernelIdeal_ReferenceIdeal := by
  intro m ρ m' ρ' _ hagree
  refine ⟨fun c => tail Cert.KernelIdeal.Facts₀.bcast_S_S256 Cert.KernelIdeal.Facts₀.reducesTo_S256_S_d0
      Cert.KernelIdeal.Facts₀.h_S_
      (colSums (m ((c.tc : Thread Cert.KernelIdeal.nD Cert.KernelIdeal.τ).loc Cert.KernelIdeal.main_arg0))),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_result, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
